-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) (main_arg1 : FVec F S8388608x3 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_v4 : FVec F S8388608x3 .f32 := Host.absf main_arg1
  let main_cst_0 : FVec F S_ .f32 := constant S_ .f32 0x7F800000#32
  let main_v5 : FVec F S8388608x3 .f32 := broadcastInDim S8388608x3 ![] bcast_S_S8388608x3 main_cst_0
  let main_v6 : IVec S8388608x3 1 := cmpf .olt main_v4 main_v5
  let main_c_1 : IVec S_ 1 := constantI S_ 1 1#1
  let main_v7 : IVec S_ 1 := (fun x v => Host.reduce IntOp.andi x v reducesTo_S8388608x3_S_d0_1 h_S_) main_v6 main_c_1
  let main_v8 : IVec S_ 1 := andi main_v3 main_v7
  main_v8
-- ==== Kernel.lean ====
abbrev S8388608x3 : Shape := ⟨2, ![8388608, 3]⟩
abbrev S4096x3 : Shape := ⟨2, ![4096, 3]⟩
abbrev S4096 : Shape := ⟨1, ![4096]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S8388608x3, .f32⟩
  | .hbm, ⟨1, _⟩ => ⟨S8388608x3, .f32⟩
  | .hbm, ⟨2, _⟩ => ⟨S8388608x3, .f32⟩
  | .local _ .vmem, ⟨0, _⟩ => ⟨S4096x3, .f32⟩
  | .local _ .vmem, ⟨1, _⟩ => ⟨S4096x3, .f32⟩
  | .local _ .vmem, ⟨2, _⟩ => ⟨S4096x3, .f32⟩
  | .local _ .vmem, ⟨3, _⟩ => ⟨S4096x3, .f32⟩
  | .local _ .vmem, ⟨4, _⟩ => ⟨S4096x3, .f32⟩
  | .local _ .vmem, ⟨5, _⟩ => ⟨S4096x3, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x3_S4096x3_0_0 : ∀ a, (![0, 0] : Fin 2 → Nat) a + S4096x3.size a ≤ S4096x3.size a
  h_S4096x3 : 0 < S4096x3.numel
  reduces_S4096x3_S4096 : S4096x3.Reduces [1] S4096
  shapeCasts_S4096_S4096x1 : S4096.ShapeCasts S4096x1
  broadcasts_S4096x1_S4096x3 : S4096x1.Broadcasts S4096x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S8388608x3.size a
  hwx0_0 : ∀ i : grid0.Coords, EltTy.bits .f32 = 32 ∨ (Rect.block (s := S8388608x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S8388608x3.size a
  hwx0_1 : ∀ i : grid0.Coords, EltTy.bits .f32 = 32 ∨ (Rect.block (s := S8388608x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x3.size a ≤ S8388608x3.size a
  hwx0_2 : ∀ i : grid0.Coords, EltTy.bits .f32 = 32 ∨ (Rect.block (s := S8388608x3) S4096x3.size (cc0_transform_2 i) (hinb0_2 i)).WholeWords (EltTy.packing .f32)

variable [Facts₀]

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S_ : Shape := ⟨0, ![]⟩
abbrev S8388608 : Shape := ⟨1, ![8388608]⟩
abbrev S8388608x1 : Shape := ⟨2, ![8388608, 1]⟩

abbrev nBuf : Space → Nat
  | .hbm => 20
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608x3, .f32⟩
  | .hbm, ⟨2, _⟩ => ⟨S8388608x3, .f32⟩
  | .hbm, ⟨3, _⟩ => ⟨S8388608x3, .f32⟩
  | .hbm, ⟨4, _⟩ => ⟨S_, .f32⟩
  | .hbm, ⟨5, _⟩ => ⟨S8388608, .f32⟩
  | .hbm, ⟨6, _⟩ => ⟨S8388608x1, .f32⟩
  | .hbm, ⟨7, _⟩ => ⟨S8388608x1, .f32⟩
  | .hbm, ⟨8, _⟩ => ⟨S_, .f32⟩
  | .hbm, ⟨9, _⟩ => ⟨S8388608x1, .f32⟩
  | .hbm, ⟨10, _⟩ => ⟨S8388608x1, .f32⟩
  | .hbm, ⟨11, _⟩ => ⟨S_, .f32⟩
  | .hbm, ⟨12, _⟩ => ⟨S8388608x1, .f32⟩
  | .hbm, ⟨13, _⟩ => ⟨S8388608x1, .f32⟩
  | .hbm, ⟨14, _⟩ => ⟨S_, .f32⟩
  | .hbm, ⟨15, _⟩ => ⟨S8388608x1, .f32⟩
  | .hbm, ⟨16, _⟩ => ⟨S8388608x1, .f32⟩
  | .hbm, ⟨17, _⟩ => ⟨S8388608x3, .f32⟩
  | .hbm, ⟨18, _⟩ => ⟨S8388608x3, .f32⟩
  | .hbm, ⟨19, _⟩ => ⟨S8388608x3, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S8388608x3_S8388608_d1 : S8388608x3.ReducesTo [1] S8388608
  h_S_ : 0 < S_.numel
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S8388608x1_S8388608x3_0_1 : S8388608x1.BroadcastsInDim S8388608x3 (![0, 1] : Fin 2 → Fin S8388608x3.rank)

variable [Facts₀]

class Facts : Prop extends Facts₀ where

variable [Facts]
-- ==== Proof.Spec.lean ====
/-
  The projection onto the unit ball, stated once, index by index, for both programs.

  The arrays hold 8388608 points of three coordinates each.  For a point `x` and a centre `c` (row `r` of the two
  argument arrays) put `d = x - c`.  The result's row `r` is

      c + d * min 1 (1 / max (sqrt (d₀² + d₁² + d₂²)) ε),

  with ε the float word `0x2B8CBCCC` and 1 the word `0x3F800000`: a point inside the ball (distance at most one)
  keeps its place, a point outside is pulled back along the ray from the centre onto the sphere, and ε keeps the
  quotient defined when the point is the centre itself.  Every operation is the extended reals' own; entry `(r, j)`
  depends on the whole of row `r` of both arrays (through the distance) and on nothing else.
-/
import Idealize.ShloMosaic.PureOps.Ideal
import Idealize.ShloMosaic.Lib.ValueIdx

noncomputable section

open scoped BigOperators

namespace Cert.BallProj

open Idealize.ShloMosaic Idealize.ShloMosaic.ValueIdx

/-- The shape of the three arrays: 8388608 rows (points), 3 columns (coordinates). -/
abbrev Pts : Shape := ⟨2, ![8388608, 3]⟩

/-- Column `k` of the row that the entry `i` lies in. -/
abbrev inRow (i : Pts.Idx) (k : Fin 3) : Pts.Idx :=
  ix2 (n0 := 8388608) (n1 := 3) ⟨(i 0).val, (i 0).isLt⟩ k

/-- The squared distance between the point and the centre of the row that `i` lies in: the sum over the three
    coordinates of the squared difference. -/
def sqDist (x c : Pts.Idx → EReal) (i : Pts.Idx) : EReal :=
  ∑ k : Fin 3, (x (inRow i k) - c (inRow i k)) * (x (inRow i k) - c (inRow i k))

/-- The factor the difference is scaled by: 1 inside the ball, the reciprocal of the distance outside, the
    distance floored at ε before it is inverted. -/
def shrink (x c : Pts.Idx → EReal) (i : Pts.Idx) : EReal :=
  min (Ideal.ofBits .f32 0x3F800000#32)
    (Ideal.div (Ideal.ofBits .f32 0x3F800000#32) (max (Ideal.sqrt (sqDist x c i)) (Ideal.ofBits .f32 0x2B8CBCCC#32)))

/-- The projected array: the centre plus the scaled difference, entry by entry. -/
def proj (x c : Pts.Idx → EReal) : Pts.Idx → EReal :=
  fun i => c i + (x i - c i) * shrink x c i

end Cert.BallProj

end
-- ==== Proof.RefValue.lean ====
/-
  The reference computes the projection.

  Its last stage, read at an entry `i` through the operations before it, is the centre's entry plus the difference's
  entry times a factor that the two broadcasts carry from row `i 0`: the minimum of 1 and the quotient of 1 by the
  floored square root of the row's sum of squared differences.  The host's sum starts from the zero word, which adds
  nothing; its square root and its quotient are the extended reals' own.  That is `proj` of the two arguments.
-/
import proofs.«181418_j7954279432753_1_alg».proof.Proof.Gen.ReferenceIdeal.Read
import proofs.«181418_j7954279432753_1_alg».proof.Proof.Spec
import Idealize.ShloMosaic.PureOps.Ideal.Laws

noncomputable section

open scoped BigOperators

namespace Cert.BallProj.Ref

open Cert.ReferenceIdeal Cert.ReferenceIdeal.Gen Cert.ReferenceIdeal.Read Idealize.ShloMosaic Idealize.ShloMosaic.ValueIdx
open Cert.BallProj

/-- The row index the two broadcasts and the sum compose to is the row of `i`, column `k`. -/
theorem row_idx (i : S8388608x3.Idx) (k : Fin 3) :
    idx_main_call0_v1 (idx_main_call0_v2 (idx_main_v8 i)) k = inRow i k :=
  funext fun a => Fin.ext (by match a with | ⟨0, _⟩ => rfl | ⟨1, _⟩ => rfl)

/-- The reference's result stage is the projection of its two arguments. -/
theorem val_eq_proj (x c : (⟨S8388608x3, .f32⟩ : BufTy).Contents (Elt Ideal)) :
    val_main_v10 (F := Ideal) x c = proj x c := by
  funext i
  rw [val_main_v10_apply, val_main_v9_apply, val_main_v8_apply, val_main_v7_apply, val_main_v6_apply,
    val_main_cst_1_apply, val_main_v5_apply, val_main_v4_apply, val_main_cst_0_apply, val_main_v3_apply,
    val_main_v2_apply, val_main_cst_apply, val_main_v1_apply, val_main_call0_v2_apply, val_main_call0_v1_apply,
    val_main_call0_cst_apply, val_main_v0_apply]
  simp only [val_main_call0_v0_apply, val_main_v0_apply, row_idx, Ideal.ofBits_def, Ideal.addf_def, Ideal.subf_def,
    Ideal.mulf_def, Ideal.minimumf_def, Ideal.maximumf_def, Ideal.hostDivf_def, Ideal.hostUnary_sqrt_def,
    Ideal.ofBits_zero_f32, zero_add]
  rfl

end Cert.BallProj.Ref

end
-- ==== Proof.BlockValue.lean ====
/-
  One block of the kernel's output is the projection, read through the block's place in the array.

  The body loads a block of 4096 points and the matching block of centres, and what it leaves in the output block
  is, entry by entry, the centre's entry plus the difference's entry times a factor that depends on the entry's row
  only: the lane sum of the block's squared differences at that row — a sum over the three columns —, its square
  root floored at ε, inverted, capped at 1.  If the two input blocks are the arrays `X` and `C` read through a map
  `e` that shifts rows by a constant and keeps columns, the row of `e y` is the image of the row of `y`, so the
  lane sum is the squared distance of row `(e y) 0` and the entry is `proj X C (e y)`.
-/
import proofs.«181418_j7954279432753_1_alg».proof.Proof.ValuePatched
import proofs.«181418_j7954279432753_1_alg».proof.Proof.Spec
import Idealize.ShloMosaic.PureOps.Ideal.Laws

noncomputable section

open scoped BigOperators

namespace Cert.BallProj.Ker

open Cert.KernelIdeal Cert.KernelIdeal.Gen Cert.KernelIdeal.ValueP Idealize.ShloMosaic Idealize.ShloMosaic.ValueIdx
open Cert.BallProj

/-- Column `k` of the block row that the block entry `y` lies in. -/
abbrev blkRow (y : S4096x3.Idx) (k : Fin 3) : S4096x3.Idx :=
  ix2 (n0 := 4096) (n1 := 3) ⟨(y 0).val, (y 0).isLt⟩ k

/-- The lane sum of the block's squared differences, read at the row of `y`: the sum over the three columns. -/
theorem lane_sum (P0 P1 : Vec Ideal S4096x3 .f32) (y : S4096x3.Idx) :
    (multiReduction (F := Ideal) .add [1] S4096 (mulf (subf P1 P0) (subf P1 P0)) 0x00000000#32 reduces_S4096x3_S4096 (.inl rfl) rfl) (ix2_3 y)
      = ∑ k : Fin 3, (P1 (blkRow y k) - P0 (blkRow y k)) * (P1 (blkRow y k) - P0 (blkRow y k)) := by
  refine (Ideal.multiReduction_add_single (mulf (subf P1 P0) (subf P1 P0)) 0x00000000#32 reduces_S4096x3_S4096 (.inl rfl) rfl (ix2_3 y)).trans ?_
  refine Finset.sum_congr rfl fun k _ => ?_
  have e : (reduces_S4096x3_S4096).lift (ix2_3 y) k = blkRow y k :=
    funext fun a => Fin.ext (by match a with | ⟨0, _⟩ => rfl | ⟨1, _⟩ => rfl)
  rw [e]
  rfl

/-- The block the body leaves is the projection read through `e`, for input blocks that are the two arrays read
    through `e`, when `e` shifts rows by a constant `b` and keeps columns. -/
theorem block_entry (X C : Pts.Idx → EReal) (P0 P1 : Vec Ideal S4096x3 .f32) (e : S4096x3.Idx → Pts.Idx) (b : Nat)
    (hC : ∀ y, P0 y = C (e y)) (hX : ∀ y, P1 y = X (e y))
    (he0 : ∀ y, (e y 0).val = b + (y 0).val) (he1 : ∀ y, (e y 1).val = (y 1).val) (y : S4096x3.Idx) :
    E2 (F := Ideal) P0 P1 y = proj X C (e y) := by
  have hrow : ∀ k : Fin 3, e (blkRow y k) = inRow (e y) k := fun k =>
    funext fun a => Fin.ext (by
      match a with
      | ⟨0, _⟩ => show (e (blkRow y k) 0).val = (e y 0).val; rw [he0, he0]
      | ⟨1, _⟩ => show (e (blkRow y k) 1).val = k.val; rw [he1])
  have h0 : ix2_0 y = y := funext fun a => Fin.ext (by match a with | ⟨0, _⟩ => rfl | ⟨1, _⟩ => rfl)
  have h1 : ix2_1 y = y := funext fun a => Fin.ext (by match a with | ⟨0, _⟩ => rfl | ⟨1, _⟩ => rfl)
  have h2 : ix2_2 y = y := funext fun a => Fin.ext (by match a with | ⟨0, _⟩ => rfl | ⟨1, _⟩ => rfl)
  unfold E2 proj shrink sqDist
  rw [h0, h1, h2, lane_sum P0 P1 y]
  simp only [hC, hX, hrow]
  rfl

/-- The rectangle the body loads and stores through starts at the block's origin. -/
theorem origin_zero : (![0, 0] : Fin 2 → Nat) = fun _ => 0 := funext fun a => by fin_cases a <;> rfl

/-- What the body leaves in the output block, from the two input blocks: the body's one store covers the block and
    its loads read the input blocks whole, so the block is `E2` of the two, hence the projection read through `e`. -/
theorem out_entry (X C : Pts.Idx → EReal) (x0 x1 : Vec Ideal S4096x3 .f32) (e : S4096x3.Idx → Pts.Idx) (b : Nat)
    (hX : ∀ y, x0 y = X (e y)) (hC : ∀ y, x1 y = C (e y))
    (he0 : ∀ y, (e y 0).val = b + (y 0).val) (he1 : ∀ y, (e y 1).val = (y 1).val) (y : S4096x3.Idx) :
    out0_2 (F := Ideal) x0 x1 y = proj X C (e y) := by
  unfold out0_2
  simp only [View.ld_unit_zero (S := S4096x3) origin_zero]
  rw [ValueP.canon2_eq]
  exact block_entry X C x1 x0 e b hC hX he0 he1 y

end Cert.BallProj.Ker

end
-- ==== Proof.KernelValue.lean ====
/-
  The kernel's result array is the projection of its two argument arrays.

  The grid has 2048 points; at point `t` each of the three windows is at block `(t, 0)`: rows `4096 t` to
  `4096 t + 4095`, all three columns.  So the two input blocks at `t` are the argument arrays read through the
  output block's own place in the array, a map that shifts rows by `4096 t` and keeps columns, and what point `t`
  writes back is block `t` of the projection.  Row `r` of the array lies in the block of point `r / 4096`, so the
  2048 blocks cover the array, and the array after the run is the projection everywhere.
-/
import proofs.«181418_j7954279432753_1_alg».proof.Proof.ValuePatched
import proofs.«181418_j7954279432753_1_alg».proof.Proof.BlockValue
import Idealize.ShloMosaic.Lib.Pipeline.Value

noncomputable section

namespace Cert.BallProj.Ker

open Cert.KernelIdeal Cert.KernelIdeal.Gen Idealize.ShloMosaic Idealize.ShloMosaic.TcCoe Idealize.SL.Sem
open Idealize.ShloMosaic.Pipeline (Dat)
open Cert.BallProj

variable (m : (ℓ : Loc nD τ sig) → Buf (Elt Ideal) ℓ) (ρ : Dev nD → PrngReg)

/-- The printed index maps, decided over the 2048 grid points: every window is at block row `t`, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the argument arrays. -/
theorem flushed_eq (c : Dev nD) (t : Fin cfg0.N) :
    (dats m 0 c).flushed 2 t
      = ((cfg0.win 2).blk t).view.read (Elt Ideal) (proj (V m c main_arg0) (V m c main_arg1)) := by
  rw [ValueP.flushed2]
  obtain ⟨a0, a1, b0, b1, o0, o1⟩ := idx_facts t
  funext y
  show out0_2 (iblk m c 0 t) (iblk m c 1 t) y
    = proj (V m c main_arg0) (V m c main_arg1) (((cfg0.win 2).blk t).view.emb y)
  refine out_entry (V m c main_arg0) (V m c main_arg1) (iblk m c 0 t) (iblk m c 1 t)
    (((cfg0.win 2).blk t).view.emb) (t.val * 4096) (fun y' => ?_) (fun y' => ?_) (fun y' => ?_) (fun y' => ?_) y
  · show V m c main_arg0 (((cfg0.win 0).blk t).view.emb y') = V m c main_arg0 (((cfg0.win 2).blk t).view.emb y')
    refine congrArg _ (funext fun a => Fin.ext ?_)
    match a with
    | ⟨0, _⟩ =>
      show win0_0.index t (0 : Fin 2) * 4096 + 1 * (y' 0).val = win0_2.index t (0 : Fin 2) * 4096 + 1 * (y' 0).val
      omega
    | ⟨1, _⟩ =>
      show win0_0.index t (1 : Fin 2) * 3 + 1 * (y' 1).val = win0_2.index t (1 : Fin 2) * 3 + 1 * (y' 1).val
      omega
  · show V m c main_arg1 (((cfg0.win 1).blk t).view.emb y') = V m c main_arg1 (((cfg0.win 2).blk t).view.emb y')
    refine congrArg _ (funext fun a => Fin.ext ?_)
    match a with
    | ⟨0, _⟩ =>
      show win0_1.index t (0 : Fin 2) * 4096 + 1 * (y' 0).val = win0_2.index t (0 : Fin 2) * 4096 + 1 * (y' 0).val
      omega
    | ⟨1, _⟩ =>
      show win0_1.index t (1 : Fin 2) * 3 + 1 * (y' 1).val = win0_2.index t (1 : Fin 2) * 3 + 1 * (y' 1).val
      omega
  · show win0_2.index t (0 : Fin 2) * 4096 + 1 * (y' 0).val = t.val * 4096 + (y' 0).val
    omega
  · show win0_2.index t (1 : Fin 2) * 3 + 1 * (y' 1).val = (y' 1).val
    omega

/-- An entry of the array is in point `t`'s output block iff each coordinate is in the block's range on its axis. -/
theorem mem_blk (t : Fin cfg0.N) (i : S8388608x3.Idx) :
    i ∈ ((cfg0.win 2).blk t).view.set ↔ ∀ a : Fin 2, win0_2.index t a * S4096x3.size a ≤ (i a).val
      ∧ (i a).val < win0_2.index t a * S4096x3.size a + S4096x3.size a := by
  show i ∈ ((View.whole main_v0).slice (win0_2.rect t)).set ↔ _
  rw [View.set_slice_whole, Rect.mem_set_unit]
  exact Iff.rfl

/-- Every entry of the array is in some point's output block: row `r` is in the block of point `r / 4096`. -/
theorem cover (i : S8388608x3.Idx) :
    ∃ t : Fin cfg0.N, (cfg0.win 2).flush t = true ∧ i ∈ ((cfg0.win 2).blk t).view.set := by
  have hN : grid0.N = 2048 := N_0
  have hi0 : (i 0).val < 8388608 := (i 0).isLt
  have hi1 : (i 1).val < 3 := (i 1).isLt
  have ht : (i 0).val / 4096 < cfg0.N := by show (i 0).val / 4096 < grid0.N; rw [hN]; omega
  refine ⟨⟨(i 0).val / 4096, ht⟩, flush0_2 _, ?_⟩
  rw [mem_blk]
  obtain ⟨-, -, -, -, o0, o1⟩ := idx_facts ⟨(i 0).val / 4096, ht⟩
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    rw [o0]
    show (i 0).val / 4096 * 4096 ≤ (i 0).val ∧ (i 0).val < (i 0).val / 4096 * 4096 + 4096
    omega
  | ⟨1, _⟩ =>
    show win0_2.index ⟨(i 0).val / 4096, ht⟩ (1 : Fin 2) * 3 ≤ (i 1).val
      ∧ (i 1).val < win0_2.index ⟨(i 0).val / 4096, ht⟩ (1 : Fin 2) * 3 + 3
    rw [o1]
    omega

/-- The result array after the run is the projection of the argument arrays. -/
theorem final (c : Dev nD) :
    (dats m 0 c).arrAt 2 cfg0.N
      = proj (m ((c : Thread nD τ).loc main_arg0)) (m ((c : Thread nD τ).loc main_arg1)) :=
  (dats m 0 c).arrAt_eq_of_cover 2 (proj (V m c main_arg0) (V m c main_arg1)) (fun t _ => flushed_eq m c t) cover

/-- Every weakly fair execution of the kernel's program ends with the result array at the projection of the
    argument arrays, and the argument arrays as they were. -/
theorem run : θ_run defs (onTc (τ := τ) (main (F := Ideal))) ⟨m, fun _ => 0, ρ⟩ fun r => ∀ c : Dev nD,
      r.2.mem ((c : Thread nD τ).loc main_v0)
        = proj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueP.run_blocks m ρ)

end Cert.BallProj.Ker

end
-- ==== Proof.lean ====
/-
  The projection of points onto the unit ball: the kernel against its reference.

  Both programs compute, for 8388608 points `x` and centres `c` of three coordinates, the point
  `c + (x - c) * min 1 (1 / max |x - c| ε)` (Proof/Spec.lean, `proj`).  The reference does it in one pass over the
  whole arrays; the kernel in 2048 blocks of 4096 rows, each row's distance a lane sum inside its block.  At the
  ideal instance the two are the same function of the arguments, operation for operation: the same subtraction,
  the same three squares summed from zero, the same square root, floor, quotient and cap, with the same float
  words for ε and 1.  No algebraic law is needed beyond reading each program's term at an entry, so the
  precondition is never opened.

  * Proof/Spec.lean — the function `proj`;
  * Proof/RefValue.lean — the reference's result stage is `proj` of its arguments;
  * Proof/BlockValue.lean — one output block of the kernel is `proj` read through the block's place in the array;
  * Proof/KernelValue.lean — the blocks cover the array, so the kernel's result array is `proj` of its arguments.

  The three frames are the generated ones (the reference's is its generated run with the result dropped).  The
  idealized kernel is the kernel's own text read at the ideal instance, with no operation replaced, so the claim
  that it is the kernel's idealization has nothing to state.
-/
import proofs.«181418_j7954279432753_1_alg».proof.Defs
import proofs.«181418_j7954279432753_1_alg».proof.Proof.Gen.Kernel
import proofs.«181418_j7954279432753_1_alg».proof.Proof.Gen.Kernel.Frame
import proofs.«181418_j7954279432753_1_alg».proof.Proof.Gen.KernelIdeal
import proofs.«181418_j7954279432753_1_alg».proof.Proof.Gen.KernelIdeal.Frame
import proofs.«181418_j7954279432753_1_alg».proof.Proof.Gen.ReferenceIdeal
import proofs.«181418_j7954279432753_1_alg».proof.Proof.Gen.ReferenceIdeal.Run
import proofs.«181418_j7954279432753_1_alg».proof.Proof.Gen.ReferenceIdeal.Read
import proofs.«181418_j7954279432753_1_alg».proof.Proof.Gen.Pre_finite_inputs
import proofs.«181418_j7954279432753_1_alg».proof.Proof.RefValue
import proofs.«181418_j7954279432753_1_alg».proof.Proof.KernelValue
import Idealize.ShloMosaic.Adequacy
import Idealize.ShloMosaic.Init

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the projection of the arguments in their
    result array: the kernel block by block, the reference stage by stage. -/
theorem algebraic : Cert.algebraic_KernelIdeal_ReferenceIdeal := by
  intro m ρ m' ρ' _ hagree
  refine ⟨fun c => Cert.BallProj.proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BallProj.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.BallProj.Ref.val_eq_proj, (hagree c).1, (hagree c).2]

end

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
